-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 104
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x1, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x1, .f32⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S100000, .f32⟩
  | 25 => ⟨S100000x1, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The kernel's run with its RESULT named.

  @main is ten segments: four stretches of host operations and six tiled regions.  The buffer contents at the segment
  boundaries are a fold from the launch memory: a host stretch applies its operations, a region replaces its arrays by what
  its write-backs leave and keeps every other buffer.  Every weakly fair execution ends with every unscoped buffer at the
  last boundary's contents; the frame keeps of that only the eight arguments, and here the result buffer is kept as well:
  it ends at the last boundary's contents of the buffer the sixth region writes.
-/
import proofs.«156575_j1262720385649_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the last
    segment boundary gives it, and the eight arguments end as launched. -/
theorem run : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.Spec.lean ====
/-
  Three stacked graph-convolution layers, as functions of whole arrays, entry by entry, over the extended reals.

  A layer takes node features `x` (one row per node), a weight matrix `w` and a bias row, and returns, at node `p` and
  output channel `q`,
      ( agg p q + self p q ) + bias q ,
  where the two summands are computed from the rows of the product `x · w`.  This module names the two pieces that a
  tiled computation and a whole-array computation must agree on:

  * `mm x w`      — the matrix product, entry `(p, q)` being the sum over the contracted coordinate `k` of
                     `x (p, k) * w (k, q)`;
  * `comb a s b`  — the entrywise `(a + s) + b` with the bias a single row `[1, 64]` repeated down the rows;
  * `relu y`      — the entrywise maximum with the number whose binary pattern is all zeros (that is, with 0).

  Nothing here depends on how the rows are tiled: the tiling only decides WHICH grid point writes an entry, never its value.
-/
import Idealize.ShloMosaic.PureOps.Ideal
import Idealize.ShloMosaic.Lib.ValueIdx

noncomputable section

namespace Cert.Spec

open Idealize.ShloMosaic Idealize.ShloMosaic.ValueIdx
open scoped BigOperators

/-- Node features after a layer: 100000 nodes, 64 channels. -/
abbrev Rows64 : Shape := ⟨2, ![100000, 64]⟩
/-- A bias as one row. -/
abbrev Row64 : Shape := ⟨2, ![1, 64]⟩

/-- The matrix product of `[100000, k]` features with a `[k, 64]` weight, read at an entry: a sum over the contracted
    coordinate. -/
def mm {k : ℕ} (x : (⟨2, ![100000, k]⟩ : Shape).Idx → EReal) (w : (⟨2, ![k, 64]⟩ : Shape).Idx → EReal) :
    Rows64.Idx → EReal :=
  fun i => ∑ q : Fin k, x (ix2 (i 0) q) * w (ix2 q (i 1))

/-- The layer's last step: neighbour sum plus self term, plus the bias row repeated down the rows. -/
def comb (agg self : Rows64.Idx → EReal) (bias : Row64.Idx → EReal) : Rows64.Idx → EReal :=
  fun i => (agg i + self i) + bias (ix2 (0 : Fin 1) (i 1))

/-- The entrywise maximum with zero (the zero written as the float whose pattern is all zeros). -/
def relu (y : Rows64.Idx → EReal) : Rows64.Idx → EReal :=
  fun i => max (y i) (Ideal.ofBits .f32 0x00000000#32)

theorem mm_apply {k : ℕ} (x : (⟨2, ![100000, k]⟩ : Shape).Idx → EReal) (w : (⟨2, ![k, 64]⟩ : Shape).Idx → EReal)
    (i : Rows64.Idx) : mm x w i = ∑ q : Fin k, x (ix2 (i 0) q) * w (ix2 q (i 1)) := rfl

theorem comb_apply (agg self : Rows64.Idx → EReal) (bias : Row64.Idx → EReal) (i : Rows64.Idx) :
    comb agg self bias i = (agg i + self i) + bias (ix2 (0 : Fin 1) (i 1)) := rfl

theorem relu_apply (y : Rows64.Idx → EReal) (i : Rows64.Idx) :
    relu y i = max (y i) (Ideal.ofBits .f32 0x00000000#32) := rfl

end Cert.Spec

end
-- ==== Proof.Stretch.lean ====
/-
  The host operations between the tiled regions, as functions of the buffers they read.

  Between two regions @main does the irregular part of a graph-convolution layer with ordinary array operations:
  from the product `h = x · w` of the layer (one row per node), the two edge lists `src` and `dst`, the per-edge weight
  `nrm` and the per-node weight `dsq` it forms
    * the self term   `h p q * dsq p`,
    * the neighbour sum  `∑ over edges e with dst e = p of  h (src e) q * nrm e`  (a gather of rows, a scaling, a scatter-add),
    * and the bias as a one-row array.
  Each is ONE function of the contents of the buffers the stretch reads, whatever those contents are; the same three
  functions serve the three layers, only the buffers' names change.  Before the first region the edge lists are cut out of
  the `[2, E]` input, the degrees counted, and the two weights formed; those are functions of the edge input alone.
-/
import proofs.«156575_j1262720385649_1_alg».proof.Proof.Gen.KernelIdeal.Launch
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

/-- Node numbers as a gather takes them: a negative number `v` stands for `v + 100000`; laid out as a column. -/
def wrapIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The self term: every row of `h` scaled by its node's weight (a column repeated along the channels). -/
def selfOf (h : (⟨S100000x64, .f32⟩ : BufTy).Contents (Elt F)) (q : (⟨S100000x1, .f32⟩ : BufTy).Contents (Elt F)) :
    (⟨S100000x64, .f32⟩ : BufTy).Contents (Elt F) :=
  mulf h (broadcastInDim S100000x64 ![0, 1] bcast_S100000x1_S100000x64_0_1 q)

/-- The neighbour sum: rows of `h` gathered at the edges' sources, scaled by the edge weight, added into the rows the
    edges point to, starting from zero. -/
def aggOf (h : (⟨S100000x64, .f32⟩ : BufTy).Contents (Elt F)) (s d : (⟨S1600000, .i32⟩ : BufTy).Contents (Elt F))
    (n : (⟨S1600000x1, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (mulf (Host.gather gather_S100000x64_S1600000x1_S1600000x64_1_0_n_n_0_1_164 h (wrapIdx s))
      (broadcastInDim S1600000x64 ![0, 1] bcast_S1600000x1_S1600000x64_0_1 n))

/-- A bias `[64]` laid out as the one row `[1, 64]`. -/
def biasRow (b : (⟨S64, .f32⟩ : BufTy).Contents (Elt F)) : (⟨S1x64, .f32⟩ : BufTy).Contents (Elt F) :=
  shapeCast _ b shapeCasts_S64_S1x64

/-! ## Before the first region: the edge lists and the two weights, from the edge input alone -/

/-- The sources of the edges: row 0 of the `[2, E]` input, flattened. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The targets of the edges: row 1 of the input, flattened. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- `deg^(-1/2)` per node, the degree being one (the self loop) plus the number of edges pointing to the node. -/
def disOf (e : (⟨S2x1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dstOf e))
      (broadcastInDim S1600000 ![] bcast_S_S1600000 (constant S_ .f32 0x3F800000#32)))
    (broadcastInDim S100000 ![] bcast_S_S100000 (constant S_ .f32 0x3F800000#32)))

/-- The self loop's weight per node, `1 / deg` as the square of `deg^(-1/2)`. -/
def dsqFlat (e : (⟨S2x1600000, .i32⟩ : BufTy).Contents (Elt F)) : (⟨S100000, .f32⟩ : BufTy).Contents (Elt F) :=
  mulf (disOf e) (disOf e)

/-- The weight of an edge: `deg^(-1/2)` of its source times that of its target. -/
def nrmFlat (e : (⟨S2x1600000, .i32⟩ : BufTy).Contents (Elt F)) : (⟨S1600000, .f32⟩ : BufTy).Contents (Elt F) :=
  mulf (Host.gather gather_S100000_S1600000x1_S1600000_n_0_n_n_0_1_1 (disOf e) (wrapIdx (srcOf e)))
    (Host.gather gather_S100000_S1600000x1_S1600000_n_0_n_n_0_1_1 (disOf e) (wrapIdx (dstOf e)))

variable (W : Valuation τ sig (Elt F))

theorem src0 : after hostOps0 W (Proc.devRef .tc main_v1) = srcOf (W (Proc.devRef .tc main_arg1)) := by
  after_results_simp <;> rfl
theorem dst0 : after hostOps0 W (Proc.devRef .tc main_v3) = dstOf (W (Proc.devRef .tc main_arg1)) := by
  after_results_simp <;> rfl
/-- The self-loop weights as the kernel keeps them: a column `[100000, 1]`. -/
theorem dsq0 : after hostOps0 W (Proc.devRef .tc main_v12)
    = shapeCast _ (dsqFlat (W (Proc.devRef .tc main_arg1))) shapeCasts_S100000_S100000x1 := by
  after_results_simp <;> rfl
/-- The edge weights as the kernel keeps them: a column `[1600000, 1]`. -/
theorem nrm0 : after hostOps0 W (Proc.devRef .tc main_v28)
    = shapeCast _ (nrmFlat (W (Proc.devRef .tc main_arg1))) shapeCasts_S1600000_S1600000x1 := by
  after_results_simp <;> rfl

/-! ## The stretch after the first product -/

theorem self1 : after hostOps1 W (Proc.devRef .tc main_v31)
    = selfOf (W (Proc.devRef .tc main_v29)) (W (Proc.devRef .tc main_v12)) := by
  after_results_simp <;> rfl
theorem agg1 : after hostOps1 W (Proc.devRef .tc main_v43)
    = aggOf (W (Proc.devRef .tc main_v29)) (W (Proc.devRef .tc main_v1)) (W (Proc.devRef .tc main_v3)) (W (Proc.devRef .tc main_v28)) := by
  after_results_simp <;> rfl
theorem bias1 : after hostOps1 W (Proc.devRef .tc main_v44) = biasRow (W (Proc.devRef .tc main_arg3)) := by
  after_results_simp <;> rfl

/-! ## The stretch after the second product -/

theorem self3 : after hostOps3 W (Proc.devRef .tc main_v48)
    = selfOf (W (Proc.devRef .tc main_v46)) (W (Proc.devRef .tc main_v12)) := by
  after_results_simp <;> rfl
theorem agg3 : after hostOps3 W (Proc.devRef .tc main_v60)
    = aggOf (W (Proc.devRef .tc main_v46)) (W (Proc.devRef .tc main_v1)) (W (Proc.devRef .tc main_v3)) (W (Proc.devRef .tc main_v28)) := by
  after_results_simp <;> rfl
theorem bias3 : after hostOps3 W (Proc.devRef .tc main_v61) = biasRow (W (Proc.devRef .tc main_arg5)) := by
  after_results_simp <;> rfl

/-! ## The stretch after the third product -/

theorem self5 : after hostOps5 W (Proc.devRef .tc main_v65)
    = selfOf (W (Proc.devRef .tc main_v63)) (W (Proc.devRef .tc main_v12)) := by
  after_results_simp <;> rfl
theorem agg5 : after hostOps5 W (Proc.devRef .tc main_v77)
    = aggOf (W (Proc.devRef .tc main_v63)) (W (Proc.devRef .tc main_v1)) (W (Proc.devRef .tc main_v3)) (W (Proc.devRef .tc main_v28)) := by
  after_results_simp <;> rfl
theorem bias5 : after hostOps5 W (Proc.devRef .tc main_v78) = biasRow (W (Proc.devRef .tc main_arg7)) := by
  after_results_simp <;> rfl

end Cert.KernelIdeal.Stretch

end
-- ==== Proof.Carry.lean ====
/-
  Buffers that later segments only read.

  The edge lists, the two weight columns and the arguments are written (if at all) before the first region and only read
  afterwards.  The contents of the buffers at a segment boundary are a fold: a region replaces ITS arrays and keeps every
  other buffer; a stretch of host operations replaces the buffers its operations write and keeps every other one.  So a
  buffer that no region between two boundaries owns and no operation between them writes holds at the later boundary what it
  held at the earlier one.  The walks are stated for any buffer, with "this region does not own it" and "this stretch does not
  write it" as hypotheses, and then read for the buffers the layers need.
-/
import proofs.«156575_j1262720385649_1_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]

/-- A stretch of host operations none of which writes the buffer keeps it: each operation's written buffer is another
    one. -/
macro "keep_through " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt F) ℓ) (ρ : Dev nD → PrngReg) (c : Dev nD) (b : Ref sig .tc)

/-- "The stretch keeps the buffer", whatever the contents it starts from. -/
abbrev Keeps (ops : List (HloOp τ sig (Elt F))) (b : Ref sig .tc) : Prop :=
  ∀ W : Valuation τ sig (Elt F), StableHlo.after ops W (Proc.devRef .tc b) = W (Proc.devRef .tc b)

/-- "The region does not own the buffer". -/
abbrev NotOf {W : ℕ} (arr : Fin W → Ref sig .tc) (b : Ref sig .tc) : Prop := ∀ w, arr w ≠ b

/-- Not written before the first region: the launch contents. -/
theorem at1 (k0 : Keeps (F := F) hostOps0 b) :
    W1 m ρ c (Proc.devRef .tc b) = m ((c : Thread nD τ).loc b) :=
  (k0 (W0 m ρ c)).trans rfl

theorem at2 (r0 : ∀ w, Pipeline.arrRef spec0 w ≠ b) :
    W2 m ρ c (Proc.devRef .tc b) = W1 m ρ c (Proc.devRef .tc b) :=
  W2_of_ne m ρ c b r0

theorem at3 (r0 : ∀ w, Pipeline.arrRef spec0 w ≠ b) (k1 : Keeps (F := F) hostOps1 b) :
    W3 m ρ c (Proc.devRef .tc b) = W1 m ρ c (Proc.devRef .tc b) :=
  (k1 (W2 m ρ c)).trans (at2 m ρ c b r0)

theorem at4 (r0 : ∀ w, Pipeline.arrRef spec0 w ≠ b) (k1 : Keeps (F := F) hostOps1 b)
    (r1 : ∀ w, Pipeline.arrRef spec1 w ≠ b) :
    W4 m ρ c (Proc.devRef .tc b) = W1 m ρ c (Proc.devRef .tc b) :=
  (W4_of_ne m ρ c b r1).trans (at3 m ρ c b r0 k1)

theorem at5 (r0 : ∀ w, Pipeline.arrRef spec0 w ≠ b) (k1 : Keeps (F := F) hostOps1 b)
    (r1 : ∀ w, Pipeline.arrRef spec1 w ≠ b) (r2 : ∀ w, Pipeline.arrRef spec2 w ≠ b) :
    W5 m ρ c (Proc.devRef .tc b) = W1 m ρ c (Proc.devRef .tc b) :=
  (W5_of_ne m ρ c b r2).trans (at4 m ρ c b r0 k1 r1)

theorem at6 (r0 : ∀ w, Pipeline.arrRef spec0 w ≠ b) (k1 : Keeps (F := F) hostOps1 b)
    (r1 : ∀ w, Pipeline.arrRef spec1 w ≠ b) (r2 : ∀ w, Pipeline.arrRef spec2 w ≠ b) (k3 : Keeps (F := F) hostOps3 b) :
    W6 m ρ c (Proc.devRef .tc b) = W1 m ρ c (Proc.devRef .tc b) :=
  (k3 (W5 m ρ c)).trans (at5 m ρ c b r0 k1 r1 r2)

theorem at7 (r0 : ∀ w, Pipeline.arrRef spec0 w ≠ b) (k1 : Keeps (F := F) hostOps1 b)
    (r1 : ∀ w, Pipeline.arrRef spec1 w ≠ b) (r2 : ∀ w, Pipeline.arrRef spec2 w ≠ b) (k3 : Keeps (F := F) hostOps3 b)
    (r3 : ∀ w, Pipeline.arrRef spec3 w ≠ b) :
    W7 m ρ c (Proc.devRef .tc b) = W1 m ρ c (Proc.devRef .tc b) :=
  (W7_of_ne m ρ c b r3).trans (at6 m ρ c b r0 k1 r1 r2 k3)

theorem at8 (r0 : ∀ w, Pipeline.arrRef spec0 w ≠ b) (k1 : Keeps (F := F) hostOps1 b)
    (r1 : ∀ w, Pipeline.arrRef spec1 w ≠ b) (r2 : ∀ w, Pipeline.arrRef spec2 w ≠ b) (k3 : Keeps (F := F) hostOps3 b)
    (r3 : ∀ w, Pipeline.arrRef spec3 w ≠ b) (r4 : ∀ w, Pipeline.arrRef spec4 w ≠ b) :
    W8 m ρ c (Proc.devRef .tc b) = W1 m ρ c (Proc.devRef .tc b) :=
  (W8_of_ne m ρ c b r4).trans (at7 m ρ c b r0 k1 r1 r2 k3 r3)

/-! ## Which stretch keeps which buffer -/

theorem keeps0_arg0 : Keeps (F := F) hostOps0 main_arg0 := fun W => by keep_through hostOps0
theorem keeps0_arg1 : Keeps (F := F) hostOps0 main_arg1 := fun W => by keep_through hostOps0
theorem keeps0_arg2 : Keeps (F := F) hostOps0 main_arg2 := fun W => by keep_through hostOps0
theorem keeps0_arg3 : Keeps (F := F) hostOps0 main_arg3 := fun W => by keep_through hostOps0
theorem keeps0_arg4 : Keeps (F := F) hostOps0 main_arg4 := fun W => by keep_through hostOps0
theorem keeps0_arg5 : Keeps (F := F) hostOps0 main_arg5 := fun W => by keep_through hostOps0
theorem keeps0_arg6 : Keeps (F := F) hostOps0 main_arg6 := fun W => by keep_through hostOps0
theorem keeps0_arg7 : Keeps (F := F) hostOps0 main_arg7 := fun W => by keep_through hostOps0

theorem keeps1_v1 : Keeps (F := F) hostOps1 main_v1 := fun W => by keep_through hostOps1
theorem keeps1_v3 : Keeps (F := F) hostOps1 main_v3 := fun W => by keep_through hostOps1
theorem keeps1_v12 : Keeps (F := F) hostOps1 main_v12 := fun W => by keep_through hostOps1
theorem keeps1_v28 : Keeps (F := F) hostOps1 main_v28 := fun W => by keep_through hostOps1
theorem keeps1_arg4 : Keeps (F := F) hostOps1 main_arg4 := fun W => by keep_through hostOps1
theorem keeps1_arg5 : Keeps (F := F) hostOps1 main_arg5 := fun W => by keep_through hostOps1
theorem keeps1_arg6 : Keeps (F := F) hostOps1 main_arg6 := fun W => by keep_through hostOps1
theorem keeps1_arg7 : Keeps (F := F) hostOps1 main_arg7 := fun W => by keep_through hostOps1

theorem keeps3_v1 : Keeps (F := F) hostOps3 main_v1 := fun W => by keep_through hostOps3
theorem keeps3_v3 : Keeps (F := F) hostOps3 main_v3 := fun W => by keep_through hostOps3
theorem keeps3_v12 : Keeps (F := F) hostOps3 main_v12 := fun W => by keep_through hostOps3
theorem keeps3_v28 : Keeps (F := F) hostOps3 main_v28 := fun W => by keep_through hostOps3
theorem keeps3_arg6 : Keeps (F := F) hostOps3 main_arg6 := fun W => by keep_through hostOps3
theorem keeps3_arg7 : Keeps (F := F) hostOps3 main_arg7 := fun W => by keep_through hostOps3

end Cert.KernelIdeal.Carry

end
-- ==== Proof.Layers.lean ====
/-
  The network as one function of the eight inputs, over the extended reals.

  With `e` the `[2, E]` edge input, a layer maps node features `x`, a weight `w` and a bias `b` to
      layer x w b e  =  ( agg + self ) + bias ,     h = x · w ,
      agg  = the neighbour sum of the rows of `h` along the edges, each edge weighted by `deg^(-1/2)` of its two ends,
      self = the rows of `h` scaled by `1 / deg`,
  and the network is three layers with the maximum with zero between them (not after the last).  The kernel tiles the
  products and the last additions over blocks of 5000 rows; the reference computes the same terms on whole arrays.  Both are
  shown equal to `gcn` below, entry by entry: no property of the numbers is used beyond what the operations are.
-/
import proofs.«156575_j1262720385649_1_alg».proof.Proof.Stretch
import proofs.«156575_j1262720385649_1_alg».proof.Proof.Spec

noncomputable section

namespace Cert.KernelIdeal.Layers

open Idealize.ShloMosaic Idealize.ShloMosaic.TcCoe Idealize.SL.Sem
open Cert.KernelIdeal Cert.KernelIdeal.Gen Cert.KernelIdeal.Stretch

/-- The edge weights as a column `[E, 1]`. -/
def nrmCol (e : (⟨S2x1600000, .i32⟩ : BufTy).Contents (Elt Ideal)) : (⟨S1600000x1, .f32⟩ : BufTy).Contents (Elt Ideal) :=
  shapeCast _ (nrmFlat (F := Ideal) e) shapeCasts_S1600000_S1600000x1

/-- The self-loop weights as a column `[N, 1]`. -/
def dsqCol (e : (⟨S2x1600000, .i32⟩ : BufTy).Contents (Elt Ideal)) : (⟨S100000x1, .f32⟩ : BufTy).Contents (Elt Ideal) :=
  shapeCast _ (dsqFlat (F := Ideal) e) shapeCasts_S100000_S100000x1

/-- The part of a layer after the product: neighbour sum plus self term plus bias, from the product's rows `h`. -/
def after (h : (⟨S100000x64, .f32⟩ : BufTy).Contents (Elt Ideal)) (b : (⟨S64, .f32⟩ : BufTy).Contents (Elt Ideal))
    (e : (⟨S2x1600000, .i32⟩ : BufTy).Contents (Elt Ideal)) : (⟨S100000x64, .f32⟩ : BufTy).Contents (Elt Ideal) :=
  Cert.Spec.comb (aggOf (F := Ideal) h (srcOf e) (dstOf e) (nrmCol e)) (selfOf (F := Ideal) h (dsqCol e)) (biasRow (F := Ideal) b)

/-- The first layer, on the `[N, 128]` input features. -/
def layer128 (x : (⟨S100000x128, .f32⟩ : BufTy).Contents (Elt Ideal)) (w : (⟨S128x64, .f32⟩ : BufTy).Contents (Elt Ideal))
    (b : (⟨S64, .f32⟩ : BufTy).Contents (Elt Ideal)) (e : (⟨S2x1600000, .i32⟩ : BufTy).Contents (Elt Ideal)) :
    (⟨S100000x64, .f32⟩ : BufTy).Contents (Elt Ideal) :=
  after (Cert.Spec.mm x w) b e

/-- A later layer, on `[N, 64]` features. -/
def layer64 (x : (⟨S100000x64, .f32⟩ : BufTy).Contents (Elt Ideal)) (w : (⟨S64x64, .f32⟩ : BufTy).Contents (Elt Ideal))
    (b : (⟨S64, .f32⟩ : BufTy).Contents (Elt Ideal)) (e : (⟨S2x1600000, .i32⟩ : BufTy).Contents (Elt Ideal)) :
    (⟨S100000x64, .f32⟩ : BufTy).Contents (Elt Ideal) :=
  after (Cert.Spec.mm x w) b e

/-- The three layers. -/
def gcn (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (w3 : (⟨S64x64, .f32⟩ : BufTy).Contents (Elt Ideal)) (b3 : (⟨S64, .f32⟩ : BufTy).Contents (Elt Ideal)) :
    (⟨S100000x64, .f32⟩ : BufTy).Contents (Elt Ideal) :=
  layer64 (Cert.Spec.relu (layer64 (Cert.Spec.relu (layer128 x w1 b1 e)) w2 b2 e)) w3 b3 e

end Cert.KernelIdeal.Layers

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.RegionMatmul.lean ====
/-
  The three feature transforms, each as one whole-array matrix product.

  A transform runs over twenty grid points; point `t` reads rows `5000·t … 5000·t + 4999` of the features and the whole
  weight, and writes the same rows of the product.  Over the extended reals the narrowing of the operands is the identity
  and the accumulation starts from zero, so one block's entry `(p, q)` is the sum over the contracted coordinate `k` of
  `x (p, k) * w (k, q)`; read through the block's position in the array this is entry `(5000·t + p, q)` of the product
  of the whole arrays.  The twenty row blocks tile the array (row `r` belongs to point `r / 5000`), so after the last
  point the array holds the whole product.
-/
import proofs.«156575_j1262720385649_1_alg».proof.Proof.Gen.KernelIdeal.Frame
import proofs.«156575_j1262720385649_1_alg».proof.Proof.Spec
import proofs.«156575_j1262720385649_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

/-- The zero offsets of a whole-buffer access, as the constant function. -/
theorem mm_offsets_zero : (![0, 0] : Fin 2 → Nat) = fun _ => 0 := funext fun a => by fin_cases a <;> rfl

variable (V : (c : Dev nD) → (b : Ref sig .tc) → Buf (Elt Ideal) ((c : Thread nD τ).loc b))

/-! ## Region 0: rows 5000·t … 5000·t + 4999 of the product, point by point -/

/-- The left operand's index of the product at output entry `j` and contraction position `k`: row of `j` … -/
theorem lhs0_0 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- … and the contraction coordinate as its column. -/
theorem lhs0_1 (j : S5000x64.Idx) (k : dot_S5000x128_S128x64_S5000x64_1_0_0_1_n_n.contr.Idx) :
    (dot_S5000x128_S128x64_S5000x64_1_0_0_1_n_n.lhsIdx j k 1).val = (k ⟨0, by decide⟩).val :=
  dot_S5000x128_S128x64_S5000x64_1_0_0_1_n_n.lhsIdx_val_of_single rfl j k
/-- The right operand's index: the contraction coordinate as its row … -/
theorem rhs0_0 (j : S5000x64.Idx) (k : dot_S5000x128_S128x64_S5000x64_1_0_0_1_n_n.contr.Idx) :
    (dot_S5000x128_S128x64_S5000x64_1_0_0_1_n_n.rhsIdx j k 0).val = (k ⟨0, by decide⟩).val :=
  dot_S5000x128_S128x64_S5000x64_1_0_0_1_n_n.rhsIdx_val_of_single rfl j k
/-- … and the column of `j`. -/
theorem rhs0_1 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- One block's product at an entry: over the extended reals the narrowing of the operands is the identity and the
    accumulation into the zero splat is the plain sum over the contracted coordinate. -/
theorem pay0_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  refine Cert.LibDot.contr_sum dot_S5000x128_S128x64_S5000x64_1_0_0_1_n_n 128 rfl rfl _ _ (ix2 p q)
    (fun k => ix2 p k) (fun k => ix2 k q) ?_ ?_
  · intro k r hk
    funext a; apply Fin.ext
    match a with
    | ⟨0, _⟩ => exact lhs0_0 _ _
    | ⟨1, _⟩ => exact (lhs0_1 _ _).trans hk
  · intro k r hk
    funext a; apply Fin.ext
    match a with
    | ⟨0, _⟩ => exact (rhs0_0 _ _).trans hk
    | ⟨1, _⟩ => exact rhs0_1 _ _

/-- The index maps over the grid: point `t` owns row block `t` of the features and of the product, all of their columns, and
    the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point `t` at `(p, k)` is the feature array at row `5000·t + p`, column `k`. -/
theorem xblk0_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = (V c main_arg0 : S100000x128.Idx → EReal) i := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, h0]; omega
  | ⟨1, _⟩ => show win0_0.index t 1 * 128 + 1 * k.val = (i 1).val; rw [e1, h1]; omega

/-- The weight block of every point is the whole weight. -/
theorem wblk0_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 64 + 1 * q.val = q.val; rw [e3]; omega

/-- What point `t` writes back is block `t` of the whole-array product. -/
theorem flushed0_eq (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero mm_offsets_zero]
  simp only [View.ld_unit_zero (S := S5000x128) mm_offsets_zero, View.ld_unit_zero (S := S128x64) mm_offsets_zero]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.Spec.mm (V c main_arg0) (V c main_arg2) (((cfg0.win 2).blk t).view.emb (ix2 p q))
  refine (pay0_apply _ _ p q).trans ?_
  rw [Cert.Spec.mm_apply]
  obtain ⟨-, -, -, -, e4, e5⟩ := idx_facts0 t
  refine Finset.sum_congr rfl fun k _ => ?_
  refine congrArg₂ (· * ·) (xblk0_apply V c t p k _ ?_ rfl) ((wblk0_apply V c t k q).trans (congrArg _ ?_))
  · show win0_2.index t 0 * 5000 + 1 * p.val = t.val * 5000 + p.val
    rw [e4]; omega
  · funext a
    apply Fin.ext
    match a with
    | ⟨0, _⟩ => rfl
    | ⟨1, _⟩ => show q.val = win0_2.index t 1 * 64 + 1 * q.val; rw [e5]; omega

/-- An index of the product array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v29).slice (win0_2.rect t)).set ↔ _
  rw [View.set_slice_whole, Rect.mem_set_unit]
  exact Iff.rfl

/-- The row blocks tile the array: row `r` is in the block of point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val
      ∧ (i 1).val < win0_2.index ⟨(i 0).val / 5000, ht⟩ 1 * 64 + 64
    rw [e5]; omega

/-- The product array after the region is the whole-array product of the arrays the region found. -/
theorem final0 (c : Dev nD) : (dat0 V c).arrAt 2 cfg0.N = Cert.Spec.mm (V c main_arg0) (V c main_arg2) :=
  (dat0 V c).arrAt_eq_of_cover 2 (Cert.Spec.mm (V c main_arg0) (V c main_arg2)) (fun t _ => flushed0_eq V c t) (cover0)

/-! ## Region 2: rows 5000·t … 5000·t + 4999 of the product, point by point -/

/-- The left operand's index of the product at output entry `j` and contraction position `k`: row of `j` … -/
theorem lhs2_0 (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contraction coordinate as its column. -/
theorem lhs2_1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single rfl j k
/-- The right operand's index: the contraction coordinate as its row … -/
theorem rhs2_0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single rfl j k
/-- … and the column of `j`. -/
theorem rhs2_1 (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- One block's product at an entry: over the extended reals the narrowing of the operands is the identity and the
    accumulation into the zero splat is the plain sum over the contracted coordinate. -/
theorem pay2_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  refine (Ideal.matmul_constant_zero_apply dot_S5000x64_S64x64_S5000x64_1_0_0_1_n_n none _ _ (ix2 p q)).trans ?_
  refine (Cert.LibDot.contr_sum dot_S5000x64_S64x64_S5000x64_1_0_0_1_n_n 64 rfl rfl _ _ (ix2 p q)
    (fun k => ix2 p k) (fun k => ix2 k q) ?_ ?_).trans ?_
  · intro k r hk
    funext a; apply Fin.ext
    match a with
    | ⟨0, _⟩ => exact lhs2_0 _ _
    | ⟨1, _⟩ => exact (lhs2_1 _ _).trans hk
  · intro k r hk
    funext a; apply Fin.ext
    match a with
    | ⟨0, _⟩ => exact (rhs2_0 _ _).trans hk
    | ⟨1, _⟩ => exact rhs2_1 _ _
  · -- the reshape of the feature block to its own shape is the identity
    refine Finset.sum_congr rfl fun k _ => ?_
    exact congrArg₂ (· * ·) (congrFun (shapeCast_self x0 shapeCasts_S5000x64_S5000x64) (ix2 p k)) rfl

/-- The index maps over the grid: point `t` owns row block `t` of the features and of the product, all of their columns, and
    the whole weight. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block of point `t` at `(p, k)` is the feature array at row `5000·t + p`, column `k`. -/
theorem xblk2_apply (c : Dev nD) (t : Fin cfg2.N) (p : Fin 5000) (k : Fin 64) (i : S100000x64.Idx)
    (h0 : (i 0).val = t.val * 5000 + p.val) (h1 : (i 1).val = k.val) :
    (iblk2 V c 0 t : Vec Ideal S5000x64 .f32) (ix2 p k) = (V c main_v45 : S100000x64.Idx → EReal) i := by
  obtain ⟨e0, e1, -, -, -, -⟩ := idx_facts2 t
  unfold iblk2
  rw [View.read_apply]
  show V c main_v45 _ = V c main_v45 _
  congr 1
  funext a
  apply Fin.ext
  match a with
  | ⟨0, _⟩ => show win2_0.index t 0 * 5000 + 1 * p.val = (i 0).val; rw [e0, h0]; omega
  | ⟨1, _⟩ => show win2_0.index t 1 * 64 + 1 * k.val = (i 1).val; rw [e1, h1]; omega

/-- The weight block of every point is the whole weight. -/
theorem wblk2_apply (c : Dev nD) (t : Fin cfg2.N) (k : Fin 64) (q : Fin 64) :
    (iblk2 V c 1 t : Vec Ideal S64x64 .f32) (ix2 k q) = (V c main_arg4 : S64x64.Idx → EReal) (ix2 k q) := by
  obtain ⟨-, -, e2, e3, -, -⟩ := idx_facts2 t
  unfold iblk2
  rw [View.read_apply]
  show V c main_arg4 _ = V c main_arg4 _
  congr 1
  funext a
  apply Fin.ext
  match a with
  | ⟨0, _⟩ => show win2_1.index t 0 * 64 + 1 * k.val = k.val; rw [e2]; omega
  | ⟨1, _⟩ => show win2_1.index t 1 * 64 + 1 * q.val = q.val; rw [e3]; omega

/-- What point `t` writes back is block `t` of the whole-array product. -/
theorem flushed2_eq (c : Dev nD) (t : Fin cfg2.N) :
    (dat2 V c).flushed 2 t = ((cfg2.win 2).blk t).view.read (Elt Ideal) (Cert.Spec.mm (V c main_v45) (V c main_arg4)) := by
  show (cfg2.win 2).cut (grid2.coords t) ((dat2 V c).after 2 t) = _
  rw [after2_2]
  unfold out2_2
  rw [View.canon_unit_zero mm_offsets_zero]
  simp only [View.ld_unit_zero (S := S5000x64) mm_offsets_zero, View.ld_unit_zero (S := S64x64) mm_offsets_zero]
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.mm (V c main_v45) (V c main_arg4) (((cfg2.win 2).blk t).view.emb (ix2 p q))
  refine (pay2_apply _ _ p q).trans ?_
  rw [Cert.Spec.mm_apply]
  obtain ⟨-, -, -, -, e4, e5⟩ := idx_facts2 t
  refine Finset.sum_congr rfl fun k _ => ?_
  refine congrArg₂ (· * ·) (xblk2_apply V c t p k _ ?_ rfl) ((wblk2_apply V c t k q).trans (congrArg _ ?_))
  · show win2_2.index t 0 * 5000 + 1 * p.val = t.val * 5000 + p.val
    rw [e4]; omega
  · funext a
    apply Fin.ext
    match a with
    | ⟨0, _⟩ => rfl
    | ⟨1, _⟩ => show q.val = win2_2.index t 1 * 64 + 1 * q.val; rw [e5]; omega

/-- An index of the product array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- The row blocks tile the array: row `r` is in the block of point `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ 0 * 5000 ≤ (i 0).val
      ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 64 ≤ (i 1).val
      ∧ (i 1).val < win2_2.index ⟨(i 0).val / 5000, ht⟩ 1 * 64 + 64
    rw [e5]; omega

/-- The product array after the region is the whole-array product of the arrays the region found. -/
theorem final2 (c : Dev nD) : (dat2 V c).arrAt 2 cfg2.N = Cert.Spec.mm (V c main_v45) (V c main_arg4) :=
  (dat2 V c).arrAt_eq_of_cover 2 (Cert.Spec.mm (V c main_v45) (V c main_arg4)) (fun t _ => flushed2_eq V c t) (cover2)

/-! ## Region 4: rows 5000·t … 5000·t + 4999 of the product, point by point -/

/-- The left operand's index of the product at output entry `j` and contraction position `k`: row of `j` … -/
theorem lhs4_0 (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contraction coordinate as its column. -/
theorem lhs4_1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single rfl j k
/-- The right operand's index: the contraction coordinate as its row … -/
theorem rhs4_0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single rfl j k
/-- … and the column of `j`. -/
theorem rhs4_1 (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- One block's product at an entry: over the extended reals the narrowing of the operands is the identity and the
    accumulation into the zero splat is the plain sum over the contracted coordinate. -/
theorem pay4_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  refine (Ideal.matmul_constant_zero_apply dot_S5000x64_S64x64_S5000x64_1_0_0_1_n_n none _ _ (ix2 p q)).trans ?_
  refine (Cert.LibDot.contr_sum dot_S5000x64_S64x64_S5000x64_1_0_0_1_n_n 64 rfl rfl _ _ (ix2 p q)
    (fun k => ix2 p k) (fun k => ix2 k q) ?_ ?_).trans ?_
  · intro k r hk
    funext a; apply Fin.ext
    match a with
    | ⟨0, _⟩ => exact lhs4_0 _ _
    | ⟨1, _⟩ => exact (lhs4_1 _ _).trans hk
  · intro k r hk
    funext a; apply Fin.ext
    match a with
    | ⟨0, _⟩ => exact (rhs4_0 _ _).trans hk
    | ⟨1, _⟩ => exact rhs4_1 _ _
  · -- the reshape of the feature block to its own shape is the identity
    refine Finset.sum_congr rfl fun k _ => ?_
    exact congrArg₂ (· * ·) (congrFun (shapeCast_self x0 shapeCasts_S5000x64_S5000x64) (ix2 p k)) rfl

/-- The index maps over the grid: point `t` owns row block `t` of the features and of the product, all of their columns, and
    the whole weight. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block of point `t` at `(p, k)` is the feature array at row `5000·t + p`, column `k`. -/
theorem xblk4_apply (c : Dev nD) (t : Fin cfg4.N) (p : Fin 5000) (k : Fin 64) (i : S100000x64.Idx)
    (h0 : (i 0).val = t.val * 5000 + p.val) (h1 : (i 1).val = k.val) :
    (iblk4 V c 0 t : Vec Ideal S5000x64 .f32) (ix2 p k) = (V c main_v62 : S100000x64.Idx → EReal) i := by
  obtain ⟨e0, e1, -, -, -, -⟩ := idx_facts4 t
  unfold iblk4
  rw [View.read_apply]
  show V c main_v62 _ = V c main_v62 _
  congr 1
  funext a
  apply Fin.ext
  match a with
  | ⟨0, _⟩ => show win4_0.index t 0 * 5000 + 1 * p.val = (i 0).val; rw [e0, h0]; omega
  | ⟨1, _⟩ => show win4_0.index t 1 * 64 + 1 * k.val = (i 1).val; rw [e1, h1]; omega

/-- The weight block of every point is the whole weight. -/
theorem wblk4_apply (c : Dev nD) (t : Fin cfg4.N) (k : Fin 64) (q : Fin 64) :
    (iblk4 V c 1 t : Vec Ideal S64x64 .f32) (ix2 k q) = (V c main_arg6 : S64x64.Idx → EReal) (ix2 k q) := by
  obtain ⟨-, -, e2, e3, -, -⟩ := idx_facts4 t
  unfold iblk4
  rw [View.read_apply]
  show V c main_arg6 _ = V c main_arg6 _
  congr 1
  funext a
  apply Fin.ext
  match a with
  | ⟨0, _⟩ => show win4_1.index t 0 * 64 + 1 * k.val = k.val; rw [e2]; omega
  | ⟨1, _⟩ => show win4_1.index t 1 * 64 + 1 * q.val = q.val; rw [e3]; omega

/-- What point `t` writes back is block `t` of the whole-array product. -/
theorem flushed4_eq (c : Dev nD) (t : Fin cfg4.N) :
    (dat4 V c).flushed 2 t = ((cfg4.win 2).blk t).view.read (Elt Ideal) (Cert.Spec.mm (V c main_v62) (V c main_arg6)) := by
  show (cfg4.win 2).cut (grid4.coords t) ((dat4 V c).after 2 t) = _
  rw [after4_2]
  unfold out4_2
  rw [View.canon_unit_zero mm_offsets_zero]
  simp only [View.ld_unit_zero (S := S5000x64) mm_offsets_zero, View.ld_unit_zero (S := S64x64) mm_offsets_zero]
  funext j
  obtain ⟨p, q, rfl⟩ : ∃ (p : Fin 5000) (q : Fin 64), j = ix2 p q := ⟨j 0, j 1, eq_ix2 j⟩
  show k4_pay1 (iblk4 V c 0 t) (iblk4 V c 1 t) (ix2 p q)
    = Cert.Spec.mm (V c main_v62) (V c main_arg6) (((cfg4.win 2).blk t).view.emb (ix2 p q))
  refine (pay4_apply _ _ p q).trans ?_
  rw [Cert.Spec.mm_apply]
  obtain ⟨-, -, -, -, e4, e5⟩ := idx_facts4 t
  refine Finset.sum_congr rfl fun k _ => ?_
  refine congrArg₂ (· * ·) (xblk4_apply V c t p k _ ?_ rfl) ((wblk4_apply V c t k q).trans (congrArg _ ?_))
  · show win4_2.index t 0 * 5000 + 1 * p.val = t.val * 5000 + p.val
    rw [e4]; omega
  · funext a
    apply Fin.ext
    match a with
    | ⟨0, _⟩ => rfl
    | ⟨1, _⟩ => show q.val = win4_2.index t 1 * 64 + 1 * q.val; rw [e5]; omega

/-- An index of the product array is in point `t`'s block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v63).slice (win4_2.rect t)).set ↔ _
  rw [View.set_slice_whole, Rect.mem_set_unit]
  exact Iff.rfl

/-- The row blocks tile the array: row `r` is in the block of point `r / 5000`. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨-, -, -, -, e4, e5⟩ := idx_facts4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ 0 * 5000 ≤ (i 0).val
      ∧ (i 0).val < win4_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ 1 * 64 ≤ (i 1).val
      ∧ (i 1).val < win4_2.index ⟨(i 0).val / 5000, ht⟩ 1 * 64 + 64
    rw [e5]; omega

/-- The product array after the region is the whole-array product of the arrays the region found. -/
theorem final4 (c : Dev nD) : (dat4 V c).arrAt 2 cfg4.N = Cert.Spec.mm (V c main_v62) (V c main_arg6) :=
  (dat4 V c).arrAt_eq_of_cover 2 (Cert.Spec.mm (V c main_v62) (V c main_arg6)) (fun t _ => flushed4_eq V c t) (cover4)

end Cert.KernelIdeal.RegionValue

end
-- ==== Proof.RegionCombine.lean ====
/-
  The three combining steps, each as one whole-array function.

  A step runs over twenty grid points; point `t` reads rows `5000·t … 5000·t + 4999` of the neighbour sum and of the self
  term and the whole bias row, and writes the same rows of the result.  One block's entry `(p, q)` is
  `(agg (p, q) + self (p, q)) + bias (0, q)` — the bias row repeated down the rows —, in the first two steps followed by
  the maximum with zero; read through the block's position in the array this is entry `(5000·t + p, q)` of the same
  expression of the whole arrays.  The twenty row blocks tile the array (row `r` belongs to point `r / 5000`), so after
  the last point the array holds the whole result.
-/
import proofs.«156575_j1262720385649_1_alg».proof.Proof.Gen.KernelIdeal.Frame
import proofs.«156575_j1262720385649_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

/-- The zero offsets of a whole-buffer access, as the constant function. -/
theorem comb_offsets_zero : (![0, 0] : Fin 2 → Nat) = fun _ => 0 := funext fun a => by fin_cases a <;> rfl

variable (V : (c : Dev nD) → (b : Ref sig .tc) → Buf (Elt Ideal) ((c : Thread nD τ).loc b))

/-! ## Region 1: rows 5000·t … 5000·t + 4999 of the combined features, point by point -/

/-- One block's result at an entry: the neighbour sum plus the self term, plus the bias row's entry in that column,
    then the maximum with zero.  (The bias row's block comes first among the arguments, then the two row blocks.) -/
theorem pay1_apply (b : Vec Ideal S1x64 .f32) (a s : Vec Ideal S5000x64 .f32) (p : Fin 5000) (q : Fin 64) :
    k1_pay1 b a s (ix2 p q) = max ((a (ix2 p q) + s (ix2 p q)) + b (ix2 (0 : Fin 1) q)) (Ideal.ofBits .f32 0x00000000#32) := by
  unfold k1_pay1
  simp only [shapeCast_self]
  refine congrArg₂ max (congrArg₂ (· + ·) rfl ?_) rfl
  exact broadcastTo_1b_ab_apply b broadcasts_S1x64_S5000x64 p q

/-- The index maps over the grid: point `t` owns row block `t` of the two summands and of the result, all of their columns,
    and the whole bias row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The neighbour-sum block of point `t` at `(p, q)` is the array at row `5000·t + p`, column `q`. -/
theorem aggblk1_apply (c : Dev nD) (t : Fin cfg1.N) (p : Fin 5000) (q : Fin 64) (i : S100000x64.Idx)
    (h0 : (i 0).val = t.val * 5000 + p.val) (h1 : (i 1).val = q.val) :
    (iblk1 V c 0 t : Vec Ideal S5000x64 .f32) (ix2 p q) = (V c main_v43 : S100000x64.Idx → EReal) i := by
  obtain ⟨e0, e1, -, -, -, -, -, -⟩ := idx_facts1 t
  unfold iblk1
  rw [View.read_apply]
  show V c main_v43 _ = V c main_v43 _
  congr 1
  funext a
  apply Fin.ext
  match a with
  | ⟨0, _⟩ => show win1_0.index t 0 * 5000 + 1 * p.val = (i 0).val; rw [e0, h0]; omega
  | ⟨1, _⟩ => show win1_0.index t 1 * 64 + 1 * q.val = (i 1).val; rw [e1, h1]; omega

/-- The self-term block of point `t` at `(p, q)` is the array at row `5000·t + p`, column `q`. -/
theorem selfblk1_apply (c : Dev nD) (t : Fin cfg1.N) (p : Fin 5000) (q : Fin 64) (i : S100000x64.Idx)
    (h0 : (i 0).val = t.val * 5000 + p.val) (h1 : (i 1).val = q.val) :
    (iblk1 V c 1 t : Vec Ideal S5000x64 .f32) (ix2 p q) = (V c main_v31 : S100000x64.Idx → EReal) i := by
  obtain ⟨-, -, e2, e3, -, -, -, -⟩ := idx_facts1 t
  unfold iblk1
  rw [View.read_apply]
  show V c main_v31 _ = V c main_v31 _
  congr 1
  funext a
  apply Fin.ext
  match a with
  | ⟨0, _⟩ => show win1_1.index t 0 * 5000 + 1 * p.val = (i 0).val; rw [e2, h0]; omega
  | ⟨1, _⟩ => show win1_1.index t 1 * 64 + 1 * q.val = (i 1).val; rw [e3, h1]; omega

/-- The bias block of every point is the whole bias row. -/
theorem biasblk1_apply (c : Dev nD) (t : Fin cfg1.N) (q : Fin 64) :
    (iblk1 V c 2 t : Vec Ideal S1x64 .f32) (ix2 (0 : Fin 1) q) = (V c main_v44 : S1x64.Idx → EReal) (ix2 (0 : Fin 1) q) := by
  obtain ⟨-, -, -, -, e4, e5, -, -⟩ := idx_facts1 t
  unfold iblk1
  rw [View.read_apply]
  show V c main_v44 _ = V c main_v44 _
  congr 1
  funext a
  apply Fin.ext
  match a with
  | ⟨0, _⟩ => show win1_2.index t 0 * 1 + 1 * (0 : Fin 1).val = (0 : Fin 1).val; rw [e4]; omega
  | ⟨1, _⟩ => show win1_2.index t 1 * 64 + 1 * q.val = q.val; rw [e5]; omega

/-- What point `t` writes back is block `t` of the whole-array combination. -/
theorem flushed1_eq (c : Dev nD) (t : Fin cfg1.N) :
    (dat1 V c).flushed 3 t = ((cfg1.win 3).blk t).view.read (Elt Ideal) (Cert.Spec.relu (Cert.Spec.comb (V c main_v43) (V c main_v31) (V c main_v44))) := by
  show (cfg1.win 3).cut (grid1.coords t) ((dat1 V c).after 3 t) = _
  rw [after1_3]
  unfold out1_3
  rw [View.canon_unit_zero comb_offsets_zero]
  simp only [View.ld_unit_zero (S := S1x64) comb_offsets_zero, View.ld_unit_zero (S := S5000x64) comb_offsets_zero]
  funext j
  obtain ⟨p, q, rfl⟩ : ∃ (p : Fin 5000) (q : Fin 64), j = ix2 p q := ⟨j 0, j 1, eq_ix2 j⟩
  show k1_pay1 (iblk1 V c 2 t) (iblk1 V c 0 t) (iblk1 V c 1 t) (ix2 p q)
    = (Cert.Spec.relu (Cert.Spec.comb (V c main_v43) (V c main_v31) (V c main_v44))) (((cfg1.win 3).blk t).view.emb (ix2 p q))
  refine (pay1_apply _ _ _ p q).trans ?_
  rw [Cert.Spec.relu_apply, Cert.Spec.comb_apply]
  obtain ⟨-, -, -, -, -, -, e6, e7⟩ := idx_facts1 t
  have h0 : ((((cfg1.win 3).blk t).view.emb (ix2 p q)) 0).val = t.val * 5000 + p.val := by
    show win1_3.index t 0 * 5000 + 1 * p.val = t.val * 5000 + p.val
    rw [e6]; omega
  have h1 : ((((cfg1.win 3).blk t).view.emb (ix2 p q)) 1).val = q.val := by
    show win1_3.index t 1 * 64 + 1 * q.val = q.val
    rw [e7]; omega
  have hb : (ix2 (0 : Fin 1) q : S1x64.Idx) = ix2 (0 : Fin 1) ((((cfg1.win 3).blk t).view.emb (ix2 p q)) 1) := by
    funext a
    apply Fin.ext
    match a with
    | ⟨0, _⟩ => rfl
    | ⟨1, _⟩ => exact h1.symm
  refine congrArg₂ max (congrArg₂ (· + ·) (congrArg₂ (· + ·) (aggblk1_apply V c t p q _ h0 h1) (selfblk1_apply V c t p q _ h0 h1))
      ((biasblk1_apply V c t q).trans (congrArg _ hb))) rfl

/-- An index of the result array is in point `t`'s block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v45).slice (win1_3.rect t)).set ↔ _
  rw [View.set_slice_whole, Rect.mem_set_unit]
  exact Iff.rfl

/-- The row blocks tile the array: row `r` is in the block of point `r / 5000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, e6, e7⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ 0 * 5000 ≤ (i 0).val
      ∧ (i 0).val < win1_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ 1 * 64 ≤ (i 1).val
      ∧ (i 1).val < win1_3.index ⟨(i 0).val / 5000, ht⟩ 1 * 64 + 64
    rw [e7]; omega

/-- The result array after the region is the whole-array combination of the arrays the region found. -/
theorem final1 (c : Dev nD) : (dat1 V c).arrAt 3 cfg1.N = Cert.Spec.relu (Cert.Spec.comb (V c main_v43) (V c main_v31) (V c main_v44)) :=
  (dat1 V c).arrAt_eq_of_cover 3 (Cert.Spec.relu (Cert.Spec.comb (V c main_v43) (V c main_v31) (V c main_v44))) (fun t _ => flushed1_eq V c t) (cover1)

/-! ## Region 3: rows 5000·t … 5000·t + 4999 of the combined features, point by point -/

/-- One block's result at an entry: the neighbour sum plus the self term, plus the bias row's entry in that column,
    then the maximum with zero.  (The bias row's block comes first among the arguments, then the two row blocks.) -/
theorem pay3_apply (b : Vec Ideal S1x64 .f32) (a s : Vec Ideal S5000x64 .f32) (p : Fin 5000) (q : Fin 64) :
    k3_pay1 b a s (ix2 p q) = max ((a (ix2 p q) + s (ix2 p q)) + b (ix2 (0 : Fin 1) q)) (Ideal.ofBits .f32 0x00000000#32) := by
  unfold k3_pay1
  simp only [shapeCast_self]
  refine congrArg₂ max (congrArg₂ (· + ·) rfl ?_) rfl
  exact broadcastTo_1b_ab_apply b broadcasts_S1x64_S5000x64 p q

/-- The index maps over the grid: point `t` owns row block `t` of the two summands and of the result, all of their columns,
    and the whole bias row. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The neighbour-sum block of point `t` at `(p, q)` is the array at row `5000·t + p`, column `q`. -/
theorem aggblk3_apply (c : Dev nD) (t : Fin cfg3.N) (p : Fin 5000) (q : Fin 64) (i : S100000x64.Idx)
    (h0 : (i 0).val = t.val * 5000 + p.val) (h1 : (i 1).val = q.val) :
    (iblk3 V c 0 t : Vec Ideal S5000x64 .f32) (ix2 p q) = (V c main_v60 : S100000x64.Idx → EReal) i := by
  obtain ⟨e0, e1, -, -, -, -, -, -⟩ := idx_facts3 t
  unfold iblk3
  rw [View.read_apply]
  show V c main_v60 _ = V c main_v60 _
  congr 1
  funext a
  apply Fin.ext
  match a with
  | ⟨0, _⟩ => show win3_0.index t 0 * 5000 + 1 * p.val = (i 0).val; rw [e0, h0]; omega
  | ⟨1, _⟩ => show win3_0.index t 1 * 64 + 1 * q.val = (i 1).val; rw [e1, h1]; omega

/-- The self-term block of point `t` at `(p, q)` is the array at row `5000·t + p`, column `q`. -/
theorem selfblk3_apply (c : Dev nD) (t : Fin cfg3.N) (p : Fin 5000) (q : Fin 64) (i : S100000x64.Idx)
    (h0 : (i 0).val = t.val * 5000 + p.val) (h1 : (i 1).val = q.val) :
    (iblk3 V c 1 t : Vec Ideal S5000x64 .f32) (ix2 p q) = (V c main_v48 : S100000x64.Idx → EReal) i := by
  obtain ⟨-, -, e2, e3, -, -, -, -⟩ := idx_facts3 t
  unfold iblk3
  rw [View.read_apply]
  show V c main_v48 _ = V c main_v48 _
  congr 1
  funext a
  apply Fin.ext
  match a with
  | ⟨0, _⟩ => show win3_1.index t 0 * 5000 + 1 * p.val = (i 0).val; rw [e2, h0]; omega
  | ⟨1, _⟩ => show win3_1.index t 1 * 64 + 1 * q.val = (i 1).val; rw [e3, h1]; omega

/-- The bias block of every point is the whole bias row. -/
theorem biasblk3_apply (c : Dev nD) (t : Fin cfg3.N) (q : Fin 64) :
    (iblk3 V c 2 t : Vec Ideal S1x64 .f32) (ix2 (0 : Fin 1) q) = (V c main_v61 : S1x64.Idx → EReal) (ix2 (0 : Fin 1) q) := by
  obtain ⟨-, -, -, -, e4, e5, -, -⟩ := idx_facts3 t
  unfold iblk3
  rw [View.read_apply]
  show V c main_v61 _ = V c main_v61 _
  congr 1
  funext a
  apply Fin.ext
  match a with
  | ⟨0, _⟩ => show win3_2.index t 0 * 1 + 1 * (0 : Fin 1).val = (0 : Fin 1).val; rw [e4]; omega
  | ⟨1, _⟩ => show win3_2.index t 1 * 64 + 1 * q.val = q.val; rw [e5]; omega

/-- What point `t` writes back is block `t` of the whole-array combination. -/
theorem flushed3_eq (c : Dev nD) (t : Fin cfg3.N) :
    (dat3 V c).flushed 3 t = ((cfg3.win 3).blk t).view.read (Elt Ideal) (Cert.Spec.relu (Cert.Spec.comb (V c main_v60) (V c main_v48) (V c main_v61))) := by
  show (cfg3.win 3).cut (grid3.coords t) ((dat3 V c).after 3 t) = _
  rw [after3_3]
  unfold out3_3
  rw [View.canon_unit_zero comb_offsets_zero]
  simp only [View.ld_unit_zero (S := S1x64) comb_offsets_zero, View.ld_unit_zero (S := S5000x64) comb_offsets_zero]
  funext j
  obtain ⟨p, q, rfl⟩ : ∃ (p : Fin 5000) (q : Fin 64), j = ix2 p q := ⟨j 0, j 1, eq_ix2 j⟩
  show k3_pay1 (iblk3 V c 2 t) (iblk3 V c 0 t) (iblk3 V c 1 t) (ix2 p q)
    = (Cert.Spec.relu (Cert.Spec.comb (V c main_v60) (V c main_v48) (V c main_v61))) (((cfg3.win 3).blk t).view.emb (ix2 p q))
  refine (pay3_apply _ _ _ p q).trans ?_
  rw [Cert.Spec.relu_apply, Cert.Spec.comb_apply]
  obtain ⟨-, -, -, -, -, -, e6, e7⟩ := idx_facts3 t
  have h0 : ((((cfg3.win 3).blk t).view.emb (ix2 p q)) 0).val = t.val * 5000 + p.val := by
    show win3_3.index t 0 * 5000 + 1 * p.val = t.val * 5000 + p.val
    rw [e6]; omega
  have h1 : ((((cfg3.win 3).blk t).view.emb (ix2 p q)) 1).val = q.val := by
    show win3_3.index t 1 * 64 + 1 * q.val = q.val
    rw [e7]; omega
  have hb : (ix2 (0 : Fin 1) q : S1x64.Idx) = ix2 (0 : Fin 1) ((((cfg3.win 3).blk t).view.emb (ix2 p q)) 1) := by
    funext a
    apply Fin.ext
    match a with
    | ⟨0, _⟩ => rfl
    | ⟨1, _⟩ => exact h1.symm
  refine congrArg₂ max (congrArg₂ (· + ·) (congrArg₂ (· + ·) (aggblk3_apply V c t p q _ h0 h1) (selfblk3_apply V c t p q _ h0 h1))
      ((biasblk3_apply V c t q).trans (congrArg _ hb))) rfl

/-- An index of the result array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v62).slice (win3_3.rect t)).set ↔ _
  rw [View.set_slice_whole, Rect.mem_set_unit]
  exact Iff.rfl

/-- The row blocks tile the array: row `r` is in the block of point `r / 5000`. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, e6, e7⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ 0 * 5000 ≤ (i 0).val
      ∧ (i 0).val < win3_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ 1 * 64 ≤ (i 1).val
      ∧ (i 1).val < win3_3.index ⟨(i 0).val / 5000, ht⟩ 1 * 64 + 64
    rw [e7]; omega

/-- The result array after the region is the whole-array combination of the arrays the region found. -/
theorem final3 (c : Dev nD) : (dat3 V c).arrAt 3 cfg3.N = Cert.Spec.relu (Cert.Spec.comb (V c main_v60) (V c main_v48) (V c main_v61)) :=
  (dat3 V c).arrAt_eq_of_cover 3 (Cert.Spec.relu (Cert.Spec.comb (V c main_v60) (V c main_v48) (V c main_v61))) (fun t _ => flushed3_eq V c t) (cover3)

/-! ## Region 5: rows 5000·t … 5000·t + 4999 of the combined features, point by point -/

/-- One block's result at an entry: the neighbour sum plus the self term, plus the bias row's entry in that column.  (The bias row's block comes first among the arguments, then the two row blocks.) -/
theorem pay5_apply (b : Vec Ideal S1x64 .f32) (a s : Vec Ideal S5000x64 .f32) (p : Fin 5000) (q : Fin 64) :
    k5_pay1 b a s (ix2 p q) = (a (ix2 p q) + s (ix2 p q)) + b (ix2 (0 : Fin 1) q) := by
  unfold k5_pay1
  simp only [shapeCast_self]
  refine congrArg₂ (· + ·) rfl ?_
  exact broadcastTo_1b_ab_apply b broadcasts_S1x64_S5000x64 p q

/-- The index maps over the grid: point `t` owns row block `t` of the two summands and of the result, all of their columns,
    and the whole bias row. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The neighbour-sum block of point `t` at `(p, q)` is the array at row `5000·t + p`, column `q`. -/
theorem aggblk5_apply (c : Dev nD) (t : Fin cfg5.N) (p : Fin 5000) (q : Fin 64) (i : S100000x64.Idx)
    (h0 : (i 0).val = t.val * 5000 + p.val) (h1 : (i 1).val = q.val) :
    (iblk5 V c 0 t : Vec Ideal S5000x64 .f32) (ix2 p q) = (V c main_v77 : S100000x64.Idx → EReal) i := by
  obtain ⟨e0, e1, -, -, -, -, -, -⟩ := idx_facts5 t
  unfold iblk5
  rw [View.read_apply]
  show V c main_v77 _ = V c main_v77 _
  congr 1
  funext a
  apply Fin.ext
  match a with
  | ⟨0, _⟩ => show win5_0.index t 0 * 5000 + 1 * p.val = (i 0).val; rw [e0, h0]; omega
  | ⟨1, _⟩ => show win5_0.index t 1 * 64 + 1 * q.val = (i 1).val; rw [e1, h1]; omega

/-- The self-term block of point `t` at `(p, q)` is the array at row `5000·t + p`, column `q`. -/
theorem selfblk5_apply (c : Dev nD) (t : Fin cfg5.N) (p : Fin 5000) (q : Fin 64) (i : S100000x64.Idx)
    (h0 : (i 0).val = t.val * 5000 + p.val) (h1 : (i 1).val = q.val) :
    (iblk5 V c 1 t : Vec Ideal S5000x64 .f32) (ix2 p q) = (V c main_v65 : S100000x64.Idx → EReal) i := by
  obtain ⟨-, -, e2, e3, -, -, -, -⟩ := idx_facts5 t
  unfold iblk5
  rw [View.read_apply]
  show V c main_v65 _ = V c main_v65 _
  congr 1
  funext a
  apply Fin.ext
  match a with
  | ⟨0, _⟩ => show win5_1.index t 0 * 5000 + 1 * p.val = (i 0).val; rw [e2, h0]; omega
  | ⟨1, _⟩ => show win5_1.index t 1 * 64 + 1 * q.val = (i 1).val; rw [e3, h1]; omega

/-- The bias block of every point is the whole bias row. -/
theorem biasblk5_apply (c : Dev nD) (t : Fin cfg5.N) (q : Fin 64) :
    (iblk5 V c 2 t : Vec Ideal S1x64 .f32) (ix2 (0 : Fin 1) q) = (V c main_v78 : S1x64.Idx → EReal) (ix2 (0 : Fin 1) q) := by
  obtain ⟨-, -, -, -, e4, e5, -, -⟩ := idx_facts5 t
  unfold iblk5
  rw [View.read_apply]
  show V c main_v78 _ = V c main_v78 _
  congr 1
  funext a
  apply Fin.ext
  match a with
  | ⟨0, _⟩ => show win5_2.index t 0 * 1 + 1 * (0 : Fin 1).val = (0 : Fin 1).val; rw [e4]; omega
  | ⟨1, _⟩ => show win5_2.index t 1 * 64 + 1 * q.val = q.val; rw [e5]; omega

/-- What point `t` writes back is block `t` of the whole-array combination. -/
theorem flushed5_eq (c : Dev nD) (t : Fin cfg5.N) :
    (dat5 V c).flushed 3 t = ((cfg5.win 3).blk t).view.read (Elt Ideal) (Cert.Spec.comb (V c main_v77) (V c main_v65) (V c main_v78)) := by
  show (cfg5.win 3).cut (grid5.coords t) ((dat5 V c).after 3 t) = _
  rw [after5_3]
  unfold out5_3
  rw [View.canon_unit_zero comb_offsets_zero]
  simp only [View.ld_unit_zero (S := S1x64) comb_offsets_zero, View.ld_unit_zero (S := S5000x64) comb_offsets_zero]
  funext j
  obtain ⟨p, q, rfl⟩ : ∃ (p : Fin 5000) (q : Fin 64), j = ix2 p q := ⟨j 0, j 1, eq_ix2 j⟩
  show k5_pay1 (iblk5 V c 2 t) (iblk5 V c 0 t) (iblk5 V c 1 t) (ix2 p q)
    = (Cert.Spec.comb (V c main_v77) (V c main_v65) (V c main_v78)) (((cfg5.win 3).blk t).view.emb (ix2 p q))
  refine (pay5_apply _ _ _ p q).trans ?_
  rw [Cert.Spec.comb_apply]
  obtain ⟨-, -, -, -, -, -, e6, e7⟩ := idx_facts5 t
  have h0 : ((((cfg5.win 3).blk t).view.emb (ix2 p q)) 0).val = t.val * 5000 + p.val := by
    show win5_3.index t 0 * 5000 + 1 * p.val = t.val * 5000 + p.val
    rw [e6]; omega
  have h1 : ((((cfg5.win 3).blk t).view.emb (ix2 p q)) 1).val = q.val := by
    show win5_3.index t 1 * 64 + 1 * q.val = q.val
    rw [e7]; omega
  have hb : (ix2 (0 : Fin 1) q : S1x64.Idx) = ix2 (0 : Fin 1) ((((cfg5.win 3).blk t).view.emb (ix2 p q)) 1) := by
    funext a
    apply Fin.ext
    match a with
    | ⟨0, _⟩ => rfl
    | ⟨1, _⟩ => exact h1.symm
  exact congrArg₂ (· + ·) (congrArg₂ (· + ·) (aggblk5_apply V c t p q _ h0 h1) (selfblk5_apply V c t p q _ h0 h1))
      ((biasblk5_apply V c t q).trans (congrArg _ hb))

/-- An index of the result array is in point `t`'s block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v79).slice (win5_3.rect t)).set ↔ _
  rw [View.set_slice_whole, Rect.mem_set_unit]
  exact Iff.rfl

/-- The row blocks tile the array: row `r` is in the block of point `r / 5000`. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨-, -, -, -, -, -, e6, e7⟩ := idx_facts5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ 0 * 5000 ≤ (i 0).val
      ∧ (i 0).val < win5_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win5_3.index ⟨(i 0).val / 5000, ht⟩ 1 * 64 ≤ (i 1).val
      ∧ (i 1).val < win5_3.index ⟨(i 0).val / 5000, ht⟩ 1 * 64 + 64
    rw [e7]; omega

/-- The result array after the region is the whole-array combination of the arrays the region found. -/
theorem final5 (c : Dev nD) : (dat5 V c).arrAt 3 cfg5.N = Cert.Spec.comb (V c main_v77) (V c main_v65) (V c main_v78) :=
  (dat5 V c).arrAt_eq_of_cover 3 (Cert.Spec.comb (V c main_v77) (V c main_v65) (V c main_v78)) (fun t _ => flushed5_eq V c t) (cover5)

end Cert.KernelIdeal.RegionValue

end
-- ==== Proof.KernelValue.lean ====
/-
  The kernel's result as a function of its inputs.

  The contents of the buffers at the ten segment boundaries are followed from the launch to the return: the edge lists and
  the two weight columns are formed before the first region and carried unchanged to every later stretch; each product
  region leaves `x · w` of the features it finds; each stretch of host operations forms the neighbour sum, the self term and
  the bias row from the product; each combining region leaves their sum (with the maximum with zero in the first two
  layers).  Read at the result buffer after the last region this is the three-layer network of the launch contents.
-/
import proofs.«156575_j1262720385649_1_alg».proof.Proof.Gen.KernelIdeal.Frame
import proofs.«156575_j1262720385649_1_alg».proof.Proof.Spec
import proofs.«156575_j1262720385649_1_alg».proof.Proof.Stretch
import proofs.«156575_j1262720385649_1_alg».proof.Proof.Carry
import proofs.«156575_j1262720385649_1_alg».proof.Proof.Layers
import proofs.«156575_j1262720385649_1_alg».proof.Proof.RegionMatmul
import proofs.«156575_j1262720385649_1_alg».proof.Proof.RegionCombine

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Stretch Cert.KernelIdeal.Layers Cert.KernelIdeal.Carry
open Cert.KernelIdeal.RegionValue

variable (m : (ℓ : Loc nD τ sig) → Buf (Elt Ideal) ℓ) (ρ : Dev nD → PrngReg) (c : Dev nD)

/-! ## Congruences of the specification's functions -/

theorem mm_congr {k : ℕ} {x x' : (⟨2, ![100000, k]⟩ : Shape).Idx → EReal} {w w' : (⟨2, ![k, 64]⟩ : Shape).Idx → EReal}
    (hx : x = x') (hw : w = w') : Cert.Spec.mm x w = Cert.Spec.mm x' w' := by subst hx; subst hw; rfl

theorem comb_congr {a a' s s' : Cert.Spec.Rows64.Idx → EReal} {b b' : Cert.Spec.Row64.Idx → EReal}
    (ha : a = a') (hs : s = s') (hb : b = b') : Cert.Spec.comb a s b = Cert.Spec.comb a' s' b' := by
  subst ha; subst hs; subst hb; rfl

/-! ## The edge data: written before the first region, read at the entry of every later stretch -/

/-- At a boundary the four edge buffers hold the edge lists and the two weight columns of the edge input `e`. -/
structure EdgeAt (W : Valuation τ sig (Elt Ideal)) (e : (⟨S2x1600000, .i32⟩ : BufTy).Contents (Elt Ideal)) : Prop where
  src : W (Proc.devRef .tc main_v1) = srcOf (F := Ideal) e
  dst : W (Proc.devRef .tc main_v3) = dstOf (F := Ideal) e
  dsq : W (Proc.devRef .tc main_v12) = dsqCol e
  nrm : W (Proc.devRef .tc main_v28) = nrmCol e

theorem edge_at1 : EdgeAt (W1 m ρ c) (m ((c : Thread nD τ).loc main_arg1)) :=
  ⟨Stretch.src0 (W0 m ρ c), Stretch.dst0 (W0 m ρ c), Stretch.dsq0 (W0 m ρ c), Stretch.nrm0 (W0 m ρ c)⟩

theorem edge_at2 : EdgeAt (W2 m ρ c) (m ((c : Thread nD τ).loc main_arg1)) :=
  ⟨(at2 m ρ c main_v1 (by decide)).trans (edge_at1 m ρ c).src,
   (at2 m ρ c main_v3 (by decide)).trans (edge_at1 m ρ c).dst,
   (at2 m ρ c main_v12 (by decide)).trans (edge_at1 m ρ c).dsq,
   (at2 m ρ c main_v28 (by decide)).trans (edge_at1 m ρ c).nrm⟩

theorem edge_at5 : EdgeAt (W5 m ρ c) (m ((c : Thread nD τ).loc main_arg1)) :=
  ⟨(at5 m ρ c main_v1 (by decide) keeps1_v1 (by decide) (by decide)).trans (edge_at1 m ρ c).src,
   (at5 m ρ c main_v3 (by decide) keeps1_v3 (by decide) (by decide)).trans (edge_at1 m ρ c).dst,
   (at5 m ρ c main_v12 (by decide) keeps1_v12 (by decide) (by decide)).trans (edge_at1 m ρ c).dsq,
   (at5 m ρ c main_v28 (by decide) keeps1_v28 (by decide) (by decide)).trans (edge_at1 m ρ c).nrm⟩

theorem edge_at8 : EdgeAt (W8 m ρ c) (m ((c : Thread nD τ).loc main_arg1)) :=
  ⟨(at8 m ρ c main_v1 (by decide) keeps1_v1 (by decide) (by decide) keeps3_v1 (by decide) (by decide)).trans (edge_at1 m ρ c).src,
   (at8 m ρ c main_v3 (by decide) keeps1_v3 (by decide) (by decide) keeps3_v3 (by decide) (by decide)).trans (edge_at1 m ρ c).dst,
   (at8 m ρ c main_v12 (by decide) keeps1_v12 (by decide) (by decide) keeps3_v12 (by decide) (by decide)).trans (edge_at1 m ρ c).dsq,
   (at8 m ρ c main_v28 (by decide) keeps1_v28 (by decide) (by decide) keeps3_v28 (by decide) (by decide)).trans (edge_at1 m ρ c).nrm⟩

/-! ## The arguments where they are read -/

theorem arg0_at1 : W1 m ρ c (Proc.devRef .tc main_arg0) = m ((c : Thread nD τ).loc main_arg0) := at1 m ρ c main_arg0 keeps0_arg0
theorem arg2_at1 : W1 m ρ c (Proc.devRef .tc main_arg2) = m ((c : Thread nD τ).loc main_arg2) := at1 m ρ c main_arg2 keeps0_arg2
theorem arg3_at2 : W2 m ρ c (Proc.devRef .tc main_arg3) = m ((c : Thread nD τ).loc main_arg3) :=
  (at2 m ρ c main_arg3 (by decide)).trans (at1 m ρ c main_arg3 keeps0_arg3)
theorem arg4_at4 : W4 m ρ c (Proc.devRef .tc main_arg4) = m ((c : Thread nD τ).loc main_arg4) :=
  (at4 m ρ c main_arg4 (by decide) keeps1_arg4 (by decide)).trans (at1 m ρ c main_arg4 keeps0_arg4)
theorem arg5_at5 : W5 m ρ c (Proc.devRef .tc main_arg5) = m ((c : Thread nD τ).loc main_arg5) :=
  (at5 m ρ c main_arg5 (by decide) keeps1_arg5 (by decide) (by decide)).trans (at1 m ρ c main_arg5 keeps0_arg5)
theorem arg6_at7 : W7 m ρ c (Proc.devRef .tc main_arg6) = m ((c : Thread nD τ).loc main_arg6) :=
  (at7 m ρ c main_arg6 (by decide) keeps1_arg6 (by decide) (by decide) keeps3_arg6 (by decide)).trans (at1 m ρ c main_arg6 keeps0_arg6)
theorem arg7_at8 : W8 m ρ c (Proc.devRef .tc main_arg7) = m ((c : Thread nD τ).loc main_arg7) :=
  (at8 m ρ c main_arg7 (by decide) keeps1_arg7 (by decide) (by decide) keeps3_arg7 (by decide) (by decide)).trans (at1 m ρ c main_arg7 keeps0_arg7)

/-! ## Layer 1 -/

/-- The first product, after the first region. -/
theorem h1_at2 : W2 m ρ c (Proc.devRef .tc main_v29)
    = Cert.Spec.mm (m ((c : Thread nD τ).loc main_arg0)) (m ((c : Thread nD τ).loc main_arg2)) :=
  (W2_arr m ρ c 2).trans ((final0 (V1 m ρ) c).trans (mm_congr (arg0_at1 m ρ c) (arg2_at1 m ρ c)))

/-- The first layer's output with its maximum, after the second region. -/
theorem y1_at4 : W4 m ρ c (Proc.devRef .tc main_v45)
    = Cert.Spec.relu (layer128 (m ((c : Thread nD τ).loc main_arg0)) (m ((c : Thread nD τ).loc main_arg2))
        (m ((c : Thread nD τ).loc main_arg3)) (m ((c : Thread nD τ).loc main_arg1))) := by
  have hE := edge_at2 m ρ c
  have hagg : W3 m ρ c (Proc.devRef .tc main_v43) = _ := (Stretch.agg1 (W2 m ρ c)).trans (by rw [h1_at2, hE.src, hE.dst, hE.nrm])
  have hself : W3 m ρ c (Proc.devRef .tc main_v31) = _ := (Stretch.self1 (W2 m ρ c)).trans (by rw [h1_at2, hE.dsq])
  have hbias : W3 m ρ c (Proc.devRef .tc main_v44) = _ := (Stretch.bias1 (W2 m ρ c)).trans (by rw [arg3_at2])
  exact (W4_arr m ρ c 3).trans ((final1 (V3 m ρ) c).trans (congrArg Cert.Spec.relu (comb_congr hagg hself hbias)))

/-! ## Layer 2 -/

theorem h2_at5 : W5 m ρ c (Proc.devRef .tc main_v46)
    = Cert.Spec.mm (Cert.Spec.relu (layer128 (m ((c : Thread nD τ).loc main_arg0)) (m ((c : Thread nD τ).loc main_arg2))
        (m ((c : Thread nD τ).loc main_arg3)) (m ((c : Thread nD τ).loc main_arg1)))) (m ((c : Thread nD τ).loc main_arg4)) :=
  (W5_arr m ρ c 2).trans ((final2 (V4 m ρ) c).trans (mm_congr (y1_at4 m ρ c) (arg4_at4 m ρ c)))

theorem y2_at7 : W7 m ρ c (Proc.devRef .tc main_v62)
    = Cert.Spec.relu (layer64 (Cert.Spec.relu (layer128 (m ((c : Thread nD τ).loc main_arg0)) (m ((c : Thread nD τ).loc main_arg2))
        (m ((c : Thread nD τ).loc main_arg3)) (m ((c : Thread nD τ).loc main_arg1)))) (m ((c : Thread nD τ).loc main_arg4))
        (m ((c : Thread nD τ).loc main_arg5)) (m ((c : Thread nD τ).loc main_arg1))) := by
  have hE := edge_at5 m ρ c
  have hagg : W6 m ρ c (Proc.devRef .tc main_v60) = _ := (Stretch.agg3 (W5 m ρ c)).trans (by rw [h2_at5, hE.src, hE.dst, hE.nrm])
  have hself : W6 m ρ c (Proc.devRef .tc main_v48) = _ := (Stretch.self3 (W5 m ρ c)).trans (by rw [h2_at5, hE.dsq])
  have hbias : W6 m ρ c (Proc.devRef .tc main_v61) = _ := (Stretch.bias3 (W5 m ρ c)).trans (by rw [arg5_at5])
  exact (W7_arr m ρ c 3).trans ((final3 (V6 m ρ) c).trans (congrArg Cert.Spec.relu (comb_congr hagg hself hbias)))

/-! ## Layer 3 -/

theorem h3_at8 : W8 m ρ c (Proc.devRef .tc main_v63)
    = Cert.Spec.mm (Cert.Spec.relu (layer64 (Cert.Spec.relu (layer128 (m ((c : Thread nD τ).loc main_arg0)) (m ((c : Thread nD τ).loc main_arg2))
        (m ((c : Thread nD τ).loc main_arg3)) (m ((c : Thread nD τ).loc main_arg1)))) (m ((c : Thread nD τ).loc main_arg4))
        (m ((c : Thread nD τ).loc main_arg5)) (m ((c : Thread nD τ).loc main_arg1)))) (m ((c : Thread nD τ).loc main_arg6)) :=
  (W8_arr m ρ c 2).trans ((final4 (V7 m ρ) c).trans (mm_congr (y2_at7 m ρ c) (arg6_at7 m ρ c)))

/-- THE RESULT: the last boundary's contents of the result buffer are the network of the launch contents. -/
theorem result_at10 : W10 m ρ c (Proc.devRef .tc main_v79)
    = gcn (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  have hE := edge_at8 m ρ c
  have hagg : W9 m ρ c (Proc.devRef .tc main_v77) = _ := (Stretch.agg5 (W8 m ρ c)).trans (by rw [h3_at8, hE.src, hE.dst, hE.nrm])
  have hself : W9 m ρ c (Proc.devRef .tc main_v65) = _ := (Stretch.self5 (W8 m ρ c)).trans (by rw [h3_at8, hE.dsq])
  have hbias : W9 m ρ c (Proc.devRef .tc main_v78) = _ := (Stretch.bias5 (W8 m ρ c)).trans (by rw [arg7_at8])
  exact (W10_arr m ρ c 3).trans ((final5 (V9 m ρ) c).trans (comb_congr hagg hself hbias))

end Cert.KernelIdeal.KernelValue

end
-- ==== Proof.LibColumn.lean ====
/-
  Two layouts of a small array that different spellings of one computation produce, read at an entry.

  * A flat array `[a]` made into a column `[a, 1]` — by a reshape, or by a `broadcast_in_dim` that sends its one axis to axis
    0 — is the same column: both read, at `(p, 0)`, the flat array at `p`.
  * A row `[b]` repeated down `a` rows through the one-row array `[1, b]` reads, at `(p, q)`, the row at `q`; and the reshape
    of `[b]` to `[1, b]` reads, at `(0, q)`, the same.

  Stated for any element type: nothing about the entries is used.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A flat array reshaped to a column IS its `broadcast_in_dim` onto axis 0 of the column shape. -/
theorem shapeCast_col_eq_broadcastInDim {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext j
  have hj1 : (j 1).val < 1 := (j 1).isLt
  have hj0 : (j 0).val < a := (j 0).isLt
  rw [shapeCast_apply x h j (ix1 (j 0)) (by
        rw [Shape.rowMajor_val_one, Shape.rowMajor_val_two]
        show (j 0).val = (j 0).val * 1 + (j 1).val
        omega),
      broadcastInDim_apply ![0] h' x j (ix1 (j 0)) (fun ax => match ax with
        | ⟨0, _⟩ => by
          show (j 0).val = if a = 1 then 0 else (j 0).val
          split
          · omega
          · rfl)]

/-- A row `[b]` sent to `[1, b]` and then repeated down `a` rows reads, at `(p, q)`, the row at `q`. -/
theorem broadcastInDim_row_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) := by
  have hq : q.val < b := q.isLt
  refine (broadcastInDim_apply ![0, 1] h2 (broadcastInDim ⟨2, ![1, b]⟩ ![1] h1 x) (ix2 p q) (ix2 (0 : Fin 1) q)
    (fun ax => match ax with
      | ⟨0, _⟩ => by
        show (0 : ℕ) = if (1 : ℕ) = 1 then 0 else p.val
        rw [if_pos rfl]
      | ⟨1, _⟩ => by
        show q.val = if b = 1 then 0 else q.val
        split
        · omega
        · rfl)).trans ?_
  exact broadcastInDim_apply ![1] h1 x (ix2 (0 : Fin 1) q) (ix1 q) (fun ax => match ax with
    | ⟨0, _⟩ => by
      show q.val = if b = 1 then 0 else q.val
      split
      · omega
      · rfl)

end Cert.LibColumn

end
-- ==== Proof.RefValue.lean ====
/-
  The reference's result is the same three-layer function of the inputs.

  The reference computes a layer on whole arrays: the product by one `dot_general`, the neighbour sum by a gather of rows, a
  scaling and a scatter-add, the self term by a scaling, then two additions and (in the first two layers) a maximum with zero.
  Read one operation at a time this is the function `layer` of the network module applied to the previous layer's output:
    * a `dot_general` that contracts the one shared axis is, entry by entry, the sum over that axis (`mm`);
    * the weight columns `[E, 1]` and `[N, 1]` are made here by a `broadcast_in_dim` onto axis 0, there by a reshape: one
      column;
    * the bias `[64]` is repeated down the rows through `[1, 64]`: at `(p, q)` it is the bias at `q` either way;
    * the gather / scale / scatter-add chain is literally the same chain of operations.
  The edge weights are recomputed in every layer by the reference and once by the kernel; they are the same terms of the edge
  input.
-/
import proofs.«156575_j1262720385649_1_alg».proof.Proof.Gen.ReferenceIdeal.Read
import proofs.«156575_j1262720385649_1_alg».proof.Proof.Layers
import proofs.«156575_j1262720385649_1_alg».proof.Proof.LibColumn
import proofs.«156575_j1262720385649_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open Cert.KernelIdeal.Stretch (aggOf selfOf biasRow srcOf dstOf disOf dsqFlat nrmFlat wrapIdx)
open Cert.KernelIdeal.Layers (nrmCol dsqCol layer128 layer64 gcn)

/-! ## The products -/

/-- The first layer's `dot_general`, `[N, 128] · [128, 64]`, is the sum over the 128 contracted coordinates. -/
theorem dot128_eq (x : FVec Ideal S100000x128 .f32) (w : FVec Ideal S128x64 .f32) :
    Host.dotGeneral (F := Ideal) dot_S100000x128_S128x64_S100000x64_1_0_0_1_n_n none x w
      = (Cert.Spec.mm x w : FVec Ideal S100000x64 .f32) := by
  funext i
  simp only [Host.dotGeneral]
  rw [Ideal.dotGeneral_apply, Cert.Spec.mm_apply]
  exact Cert.LibDot.contr_sum dot_S100000x128_S128x64_S100000x64_1_0_0_1_n_n 128 rfl rfl x w i _ _
    (fun k q hq => funext fun a => Fin.ext (by
      match a with
      | ⟨0, _⟩ => exact lhs_main_v11_0 i k
      | ⟨1, _⟩ => exact (lhs_main_v11_1 i k).trans hq))
    (fun k q hq => funext fun a => Fin.ext (by
      match a with
      | ⟨0, _⟩ => exact (rhs_main_v11_0 i k).trans hq
      | ⟨1, _⟩ => exact rhs_main_v11_1 i k))

/-- A later layer's `dot_general`, `[N, 64] · [64, 64]`, is the sum over the 64 contracted coordinates. -/
theorem dot64_eq (x : FVec Ideal S100000x64 .f32) (w : FVec Ideal S64x64 .f32) :
    Host.dotGeneral (F := Ideal) dot_S100000x64_S64x64_S100000x64_1_0_0_1_n_n none x w
      = (Cert.Spec.mm x w : FVec Ideal S100000x64 .f32) := by
  funext i
  simp only [Host.dotGeneral]
  rw [Ideal.dotGeneral_apply, Cert.Spec.mm_apply]
  exact Cert.LibDot.contr_sum dot_S100000x64_S64x64_S100000x64_1_0_0_1_n_n 64 rfl rfl x w i _ _
    (fun k q hq => funext fun a => Fin.ext (by
      match a with
      | ⟨0, _⟩ => exact lhs_main_v49_0 i k
      | ⟨1, _⟩ => exact (lhs_main_v49_1 i k).trans hq))
    (fun k q hq => funext fun a => Fin.ext (by
      match a with
      | ⟨0, _⟩ => exact (rhs_main_v49_0 i k).trans hq
      | ⟨1, _⟩ => exact rhs_main_v49_1 i k))

/-! ## The last steps of a layer -/

/-- Neighbour sum plus self term plus the bias repeated down the rows: the entrywise `(a + s) + b q`. -/
theorem out_eq (a s : FVec Ideal S100000x64 .f32) (b : FVec Ideal S64 .f32) :
    addf (addf a s) (broadcastInDim S100000x64 ![0, 1] bcast_S1x64_S100000x64_0_1 (broadcastInDim S1x64 ![1] bcast_S64_S1x64_1 b))
      = (Cert.Spec.comb a s (biasRow (F := Ideal) b) : FVec Ideal S100000x64 .f32) := by
  funext i
  obtain ⟨p, q, rfl⟩ : ∃ (p : Fin 100000) (q : Fin 64), i = ix2 p q := ⟨i 0, i 1, eq_ix2 i⟩
  rw [Cert.Spec.comb_apply]
  refine congrArg (fun z => (a (ix2 p q) + s (ix2 p q)) + z) ?_
  exact (Cert.LibColumn.broadcastInDim_row_rows_apply b bcast_S64_S1x64_1 bcast_S1x64_S100000x64_0_1 p q).trans
    (shapeCast_a_1a_apply b _ (0 : Fin 1) q).symm

/-- The maximum with the splat of the zero pattern is `relu`. -/
theorem relu_eq (y : FVec Ideal S100000x64 .f32) :
    maximumf y (broadcastInDim S100000x64 ![] bcast_S_S100000x64 (constant (F := Ideal) S_ .f32 0x00000000#32))
      = (Cert.Spec.relu y : FVec Ideal S100000x64 .f32) := by
  funext i
  rw [Cert.Spec.relu_apply]
  exact congrArg (max (y i)) (broadcastInDim_apply ![] bcast_S_S100000x64 (constant (F := Ideal) S_ .f32 0x00000000#32) i ix0 (fun a => a.elim0))

/-! ## The edge data: the same terms of the edge input in every layer -/

variable (x1 : (⟨S2x1600000, .i32⟩ : BufTy).Contents (Elt Ideal))

theorem nrm_eq1 : val_main_v34 (F := Ideal) x1 = nrmCol x1 := by
  unfold val_main_v34 nrmCol
  rw [show val_main_v26 (F := Ideal) x1 = nrmFlat (F := Ideal) x1 from rfl]
  exact (Cert.LibColumn.shapeCast_col_eq_broadcastInDim _ _ _).symm
theorem nrm_eq2 : val_main_v72 (F := Ideal) x1 = nrmCol x1 := by
  unfold val_main_v72 nrmCol
  rw [show val_main_v64 (F := Ideal) x1 = nrmFlat (F := Ideal) x1 from rfl]
  exact (Cert.LibColumn.shapeCast_col_eq_broadcastInDim _ _ _).symm
theorem nrm_eq3 : val_main_v110 (F := Ideal) x1 = nrmCol x1 := by
  unfold val_main_v110 nrmCol
  rw [show val_main_v102 (F := Ideal) x1 = nrmFlat (F := Ideal) x1 from rfl]
  exact (Cert.LibColumn.shapeCast_col_eq_broadcastInDim _ _ _).symm

theorem dsq_eq1 : val_main_v41 (F := Ideal) x1 = dsqCol x1 := by
  unfold val_main_v41 dsqCol
  rw [show val_main_v40 (F := Ideal) x1 = dsqFlat (F := Ideal) x1 from rfl]
  exact (Cert.LibColumn.shapeCast_col_eq_broadcastInDim _ _ _).symm
theorem dsq_eq2 : val_main_v79 (F := Ideal) x1 = dsqCol x1 := by
  unfold val_main_v79 dsqCol
  rw [show val_main_v78 (F := Ideal) x1 = dsqFlat (F := Ideal) x1 from rfl]
  exact (Cert.LibColumn.shapeCast_col_eq_broadcastInDim _ _ _).symm
theorem dsq_eq3 : val_main_v117 (F := Ideal) x1 = dsqCol x1 := by
  unfold val_main_v117 dsqCol
  rw [show val_main_v116 (F := Ideal) x1 = dsqFlat (F := Ideal) x1 from rfl]
  exact (Cert.LibColumn.shapeCast_col_eq_broadcastInDim _ _ _).symm

/-! ## The three layers -/

variable (x0 : (⟨S100000x128, .f32⟩ : BufTy).Contents (Elt Ideal)) (x2 : (⟨S128x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

theorem agg_eq1 : val_main_v39 (F := Ideal) x0 x1 x2
    = aggOf (F := Ideal) (val_main_v11 (F := Ideal) x0 x2) (srcOf x1) (dstOf x1) (nrmCol x1) := by
  unfold val_main_v39 val_main_v36 val_main_v35
  rw [nrm_eq1]
  rfl
theorem self_eq1 : val_main_v43 (F := Ideal) x0 x1 x2 = selfOf (F := Ideal) (val_main_v11 (F := Ideal) x0 x2) (dsqCol x1) := by
  unfold val_main_v43 val_main_v42
  rw [dsq_eq1]
  rfl

/-- The first layer with its maximum. -/
theorem layer1_eq : val_main_v48 (F := Ideal) x0 x1 x2 x3 = Cert.Spec.relu (layer128 x0 x2 x3 x1) := by
  unfold val_main_v48 val_main_v47 val_main_v44 val_main_v46 val_main_v45 val_main_call0_v0 val_main_call0_cst
  rw [relu_eq, out_eq, agg_eq1, self_eq1]
  unfold val_main_v11
  rw [dot128_eq]
  rfl

theorem agg_eq2 : val_main_v77 (F := Ideal) x0 x1 x2 x3 x4
    = aggOf (F := Ideal) (val_main_v49 (F := Ideal) x0 x1 x2 x3 x4) (srcOf x1) (dstOf x1) (nrmCol x1) := by
  unfold val_main_v77 val_main_v74 val_main_v73
  rw [nrm_eq2]
  rfl
theorem self_eq2 : val_main_v81 (F := Ideal) x0 x1 x2 x3 x4
    = selfOf (F := Ideal) (val_main_v49 (F := Ideal) x0 x1 x2 x3 x4) (dsqCol x1) := by
  unfold val_main_v81 val_main_v80
  rw [dsq_eq2]
  rfl

/-- The second layer with its maximum, of the first layer's output. -/
theorem layer2_eq : val_main_v86 (F := Ideal) x0 x1 x2 x3 x4 x5
    = Cert.Spec.relu (layer64 (val_main_v48 (F := Ideal) x0 x1 x2 x3) x4 x5 x1) := by
  unfold val_main_v86 val_main_v85 val_main_v82 val_main_v84 val_main_v83 val_main_call1_v0 val_main_call1_cst
  rw [relu_eq, out_eq, agg_eq2, self_eq2]
  unfold val_main_v49
  rw [dot64_eq]
  rfl

theorem agg_eq3 : val_main_v115 (F := Ideal) x0 x1 x2 x3 x4 x5 x6
    = aggOf (F := Ideal) (val_main_v87 (F := Ideal) x0 x1 x2 x3 x4 x5 x6) (srcOf x1) (dstOf x1) (nrmCol x1) := by
  unfold val_main_v115 val_main_v112 val_main_v111
  rw [nrm_eq3]
  rfl
theorem self_eq3 : val_main_v119 (F := Ideal) x0 x1 x2 x3 x4 x5 x6
    = selfOf (F := Ideal) (val_main_v87 (F := Ideal) x0 x1 x2 x3 x4 x5 x6) (dsqCol x1) := by
  unfold val_main_v119 val_main_v118
  rw [dsq_eq3]
  rfl

/-- The third layer (no maximum), of the second layer's output. -/
theorem layer3_eq : val_main_v123 (F := Ideal) x0 x1 x2 x3 x4 x5 x6 x7
    = layer64 (val_main_v86 (F := Ideal) x0 x1 x2 x3 x4 x5) x6 x7 x1 := by
  unfold val_main_v123 val_main_v120 val_main_v122 val_main_v121
  rw [out_eq, agg_eq3, self_eq3]
  unfold val_main_v87
  rw [dot64_eq]
  rfl

/-- THE REFERENCE'S RESULT is the network of its inputs. -/
theorem result_eq : val_main_v123 (F := Ideal) x0 x1 x2 x3 x4 x5 x6 x7 = gcn x0 x1 x2 x3 x4 x5 x6 x7 := by
  rw [layer3_eq, layer2_eq, layer1_eq]
  rfl

end Cert.ReferenceIdeal.RefValue

end
-- ==== Proof.Claims.lean ====
/-
  The five claims.

  The three frames are the generated ones (the reference's is its generated run with the result dropped).  The idealization
  rewrote no operation, so there is nothing to preserve.  For the algebraic claim both programs are run at the extended reals
  from memories that agree on the eight inputs: the kernel's result buffer ends at the three-layer network of its inputs (the
  segment boundaries followed from launch to return), the reference's at the same network of its own inputs (its operations
  read one at a time), and the inputs agree.
-/
import proofs.«156575_j1262720385649_1_alg».proof.Defs
import proofs.«156575_j1262720385649_1_alg».proof.Proof.Gen.Kernel
import proofs.«156575_j1262720385649_1_alg».proof.Proof.Gen.KernelIdeal
import proofs.«156575_j1262720385649_1_alg».proof.Proof.Gen.ReferenceIdeal
import proofs.«156575_j1262720385649_1_alg».proof.Proof.Gen.Pre_finite_inputs
import proofs.«156575_j1262720385649_1_alg».proof.Proof.Gen.Kernel.Frame
import proofs.«156575_j1262720385649_1_alg».proof.Proof.Gen.KernelIdeal.Frame
import proofs.«156575_j1262720385649_1_alg».proof.Proof.Gen.ReferenceIdeal.Run
import proofs.«156575_j1262720385649_1_alg».proof.Proof.Gen.ReferenceIdeal.Read
import proofs.«156575_j1262720385649_1_alg».proof.Proof.RunValue
import proofs.«156575_j1262720385649_1_alg».proof.Proof.KernelValue
import proofs.«156575_j1262720385649_1_alg».proof.Proof.RefValue

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the extended reals. -/
theorem preserves : Cert.preserves_Kernel_KernelIdeal := trivial

/-- Both results are the network `gcn` of the inputs, and the inputs agree. -/
theorem algebraic : Cert.algebraic_KernelIdeal_ReferenceIdeal := by
  intro m ρ m' ρ' _ hagree
  refine ⟨fun c => Cert.KernelIdeal.Layers.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_at10 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v123_eq, Cert.ReferenceIdeal.RefValue.result_eq, h0, h1, h2, h3, h4, h5, h6, h7]

end Cert.Proof.Claims

end
-- ==== Proof.lean ====
/-
  A three-layer graph convolution, tiled over blocks of 5000 nodes, against the same network on whole arrays.

  Per layer the kernel computes the product `x · w` and the final `(agg + self) + bias` (with a maximum with zero in the first two
  layers) in tiled regions, and the neighbour sum `agg` and the self term `self` between the regions with ordinary array
  operations; the reference computes every step on whole arrays.  At the extended reals both are the function
  `Cert.KernelIdeal.Layers.gcn` of the eight inputs:
    * a block's rows of a product are the rows of the whole product, each entry the sum over the contracted coordinate
      (a change of float format is the identity there, and a product accumulated into zero is the plain sum);
    * the blocks tile the node axis, so the tiled additions are the whole-array additions entry by entry;
    * everything between the regions is the same chain of operations on both sides, up to two spellings of a column.
  No algebraic law beyond reading each operation at an entry is needed, so the precondition is never opened.
-/
import proofs.«156575_j1262720385649_1_alg».proof.Defs
import proofs.«156575_j1262720385649_1_alg».proof.Proof.Gen.Kernel
import proofs.«156575_j1262720385649_1_alg».proof.Proof.Gen.Kernel.Skeleton
import proofs.«156575_j1262720385649_1_alg».proof.Proof.Gen.Kernel.Launch
import proofs.«156575_j1262720385649_1_alg».proof.Proof.Gen.Kernel.Points
import proofs.«156575_j1262720385649_1_alg».proof.Proof.Gen.Kernel.Frame
import proofs.«156575_j1262720385649_1_alg».proof.Proof.Gen.KernelIdeal
import proofs.«156575_j1262720385649_1_alg».proof.Proof.Gen.KernelIdeal.Skeleton
import proofs.«156575_j1262720385649_1_alg».proof.Proof.Gen.KernelIdeal.Launch
import proofs.«156575_j1262720385649_1_alg».proof.Proof.Gen.KernelIdeal.Points
import proofs.«156575_j1262720385649_1_alg».proof.Proof.Gen.KernelIdeal.Frame
import proofs.«156575_j1262720385649_1_alg».proof.Proof.Gen.ReferenceIdeal
import proofs.«156575_j1262720385649_1_alg».proof.Proof.Gen.Pre_finite_inputs
import proofs.«156575_j1262720385649_1_alg».proof.Proof.Gen.ReferenceIdeal.Run
import proofs.«156575_j1262720385649_1_alg».proof.Proof.Gen.ReferenceIdeal.Read
import proofs.«156575_j1262720385649_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
